-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x5x5 : Shape := ⟨3, ![262144, 5, 5]⟩
abbrev S120x5 : Shape := ⟨2, ![120, 5]⟩
abbrev S120 : Shape := ⟨1, ![120]⟩
abbrev S84x120 : Shape := ⟨2, ![84, 120]⟩
abbrev S84 : Shape := ⟨1, ![84]⟩
abbrev S5x84 : Shape := ⟨2, ![5, 84]⟩
abbrev S5 : Shape := ⟨1, ![5]⟩
abbrev S_ : Shape := ⟨0, ![]⟩

class Facts : Prop where
  bcast_S_S262144x5x5 : S_.BroadcastsInDim S262144x5x5 (![] : Fin 0 → Fin S262144x5x5.rank)
  reducesTo_S262144x5x5_S_d0_1_2 : S262144x5x5.ReducesTo [0, 1, 2] S_
  h_S_ : 0 < S_.numel
  bcast_S_S120x5 : S_.BroadcastsInDim S120x5 (![] : Fin 0 → Fin S120x5.rank)
  reducesTo_S120x5_S_d0_1 : S120x5.ReducesTo [0, 1] S_
  bcast_S_S120 : S_.BroadcastsInDim S120 (![] : Fin 0 → Fin S120.rank)
  reducesTo_S120_S_d0 : S120.ReducesTo [0] S_
  bcast_S_S84x120 : S_.BroadcastsInDim S84x120 (![] : Fin 0 → Fin S84x120.rank)
  reducesTo_S84x120_S_d0_1 : S84x120.ReducesTo [0, 1] S_
  bcast_S_S84 : S_.BroadcastsInDim S84 (![] : Fin 0 → Fin S84.rank)
  reducesTo_S84_S_d0 : S84.ReducesTo [0] S_
  bcast_S_S5x84 : S_.BroadcastsInDim S5x84 (![] : Fin 0 → Fin S5x84.rank)
  reducesTo_S5x84_S_d0_1 : S5x84.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S84 .f32) (main_arg5 : FVec F S5x84 .f32) (main_arg6 : FVec F S5 .f32) (main_v13 : IVec S_ 1) (main_v16 : IVec S84x120 1) : IVec S_ 1 :=
  let main_c_5 : IVec S_ 1 := constantI S_ 1 1#1
  let main_v17 : IVec S_ 1 := (fun x v => Host.reduce IntOp.andi x v reducesTo_S84x120_S_d0_1 h_S_) main_v16 main_c_5
  let main_v18 : IVec S_ 1 := andi main_v13 main_v17
  let main_v19 : FVec F S84 .f32 := Host.absf main_arg4
  let main_cst_6 : FVec F S_ .f32 := constant S_ .f32 0x7F800000#32
  let main_v20 : FVec F S84 .f32 := broadcastInDim S84 ![] bcast_S_S84 main_cst_6
  let main_v21 : IVec S84 1 := cmpf .olt main_v19 main_v20
  let main_c_7 : IVec S_ 1 := constantI S_ 1 1#1
  let main_v22 : IVec S_ 1 := (fun x v => Host.reduce IntOp.andi x v reducesTo_S84_S_d0 h_S_) main_v21 main_c_7
  let main_v23 : IVec S_ 1 := andi main_v18 main_v22
  let main_v24 : FVec F S5x84 .f32 := Host.absf main_arg5
  let main_cst_8 : FVec F S_ .f32 := constant S_ .f32 0x7F800000#32
  let main_v25 : FVec F S5x84 .f32 := broadcastInDim S5x84 ![] bcast_S_S5x84 main_cst_8
  let main_v26 : IVec S5x84 1 := cmpf .olt main_v24 main_v25
  let main_c_9 : IVec S_ 1 := constantI S_ 1 1#1
  let main_v27 : IVec S_ 1 := (fun x v => Host.reduce IntOp.andi x v reducesTo_S5x84_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S262144x5x5 .f32) (main_arg1 : FVec F S120x5 .f32) (main_arg2 : FVec F S120 .f32) (main_arg3 : FVec F S84x120 .f32) (main_arg4 : FVec F S84 .f32) (main_arg5 : FVec F S5x84 .f32) (main_arg6 : FVec F S5 .f32) : IVec S_ 1 :=
  let main_v0 : FVec F S262144x5x5 .f32 := Host.absf main_arg0
  let main_cst : FVec F S_ .f32 := constant S_ .f32 0x7F800000#32
  let main_v1 : FVec F S262144x5x5 .f32 := broadcastInDim S262144x5x5 ![] bcast_S_S262144x5x5 main_cst
  let main_v2 : IVec S262144x5x5 1 := cmpf .olt main_v0 main_v1
  let main_c : IVec S_ 1 := constantI S_ 1 1#1
  let main_v3 : IVec S_ 1 := (fun x v => Host.reduce IntOp.andi x v reducesTo_S262144x5x5_S_d0_1_2 h_S_) main_v2 main_c
  let main_v4 : FVec F S120x5 .f32 := Host.absf main_arg1
  let main_cst_0 : FVec F S_ .f32 := constant S_ .f32 0x7F800000#32
  let main_v5 : FVec F S120x5 .f32 := broadcastInDim S120x5 ![] bcast_S_S120x5 main_cst_0
  let main_v6 : IVec S120x5 1 := cmpf .olt main_v4 main_v5
  let main_c_1 : IVec S_ 1 := constantI S_ 1 1#1
  let main_v7 : IVec S_ 1 := (fun x v => Host.reduce IntOp.andi x v reducesTo_S120x5_S_d0_1 h_S_) main_v6 main_c_1
  let main_v8 : IVec S_ 1 := andi main_v3 main_v7
  let main_v9 : FVec F S120 .f32 := Host.absf main_arg2
  let main_cst_2 : FVec F S_ .f32 := constant S_ .f32 0x7F800000#32
  let main_v10 : FVec F S120 .f32 := broadcastInDim S120 ![] bcast_S_S120 main_cst_2
  let main_v11 : IVec S120 1 := cmpf .olt main_v9 main_v10
  let main_c_3 : IVec S_ 1 := constantI S_ 1 1#1
  let main_v12 : IVec S_ 1 := (fun x v => Host.reduce IntOp.andi x v reducesTo_S120_S_d0 h_S_) main_v11 main_c_3
  let main_v13 : IVec S_ 1 := andi main_v8 main_v12
  let main_v14 : FVec F S84x120 .f32 := Host.absf main_arg3
  let main_cst_4 : FVec F S_ .f32 := constant S_ .f32 0x7F800000#32
  let main_v15 : FVec F S84x120 .f32 := broadcastInDim S84x120 ![] bcast_S_S84x120 main_cst_4
  let main_v16 : IVec S84x120 1 := cmpf .olt main_v14 main_v15
  fn_part1 (F := F) main_arg4 main_arg5 main_arg6 main_v13 main_v16
-- ==== Kernel.lean ====
abbrev S262144x5x5 : Shape := ⟨3, ![262144, 5, 5]⟩
abbrev S120x5 : Shape := ⟨2, ![120, 5]⟩
abbrev S120 : Shape := ⟨1, ![120]⟩
abbrev S84x120 : Shape := ⟨2, ![84, 120]⟩
abbrev S84 : Shape := ⟨1, ![84]⟩
abbrev S5x84 : Shape := ⟨2, ![5, 84]⟩
abbrev S5 : Shape := ⟨1, ![5]⟩
abbrev S5x120 : Shape := ⟨2, ![5, 120]⟩
abbrev S120x84 : Shape := ⟨2, ![120, 84]⟩
abbrev S84x5 : Shape := ⟨2, ![84, 5]⟩
abbrev S4096x5x5 : Shape := ⟨3, ![4096, 5, 5]⟩
abbrev S20480x5 : Shape := ⟨2, ![20480, 5]⟩
abbrev S20480x120 : Shape := ⟨2, ![20480, 120]⟩
abbrev S1x120 : Shape := ⟨2, ![1, 120]⟩
abbrev S20480x84 : Shape := ⟨2, ![20480, 84]⟩
abbrev S1x84 : Shape := ⟨2, ![1, 84]⟩
abbrev S1x5 : Shape := ⟨2, ![1, 5]⟩
abbrev S20480 : Shape := ⟨1, ![20480]⟩
abbrev S20480x1 : Shape := ⟨2, ![20480, 1]⟩

abbrev nBuf : Space → Nat
  | .hbm => 11
  | .vmem => 10
  | .smem => 0
  | _ => 0

abbrev bufTy : (tb : Table) → Fin (tcTables nBuf tb) → BufTy
  | .hbm, ⟨0, _⟩ => ⟨S262144x5x5, .f32⟩
  | .hbm, ⟨1, _⟩ => ⟨S120x5, .f32⟩
  | .hbm, ⟨2, _⟩ => ⟨S120, .f32⟩
  | .hbm, ⟨3, _⟩ => ⟨S84x120, .f32⟩
  | .hbm, ⟨4, _⟩ => ⟨S84, .f32⟩
  | .hbm, ⟨5, _⟩ => ⟨S5x84, .f32⟩
  | .hbm, ⟨6, _⟩ => ⟨S5, .f32⟩
  | .hbm, ⟨7, _⟩ => ⟨S5x120, .f32⟩
  | .hbm, ⟨8, _⟩ => ⟨S120x84, .f32⟩
  | .hbm, ⟨9, _⟩ => ⟨S84x5, .f32⟩
  | .hbm, ⟨10, _⟩ => ⟨S262144x5x5, .f32⟩
  | .local _ .vmem, ⟨0, _⟩ => ⟨S4096x5x5, .f32⟩
  | .local _ .vmem, ⟨1, _⟩ => ⟨S4096x5x5, .f32⟩
  | .local _ .vmem, ⟨2, _⟩ => ⟨S5x120, .f32⟩
  | .local _ .vmem, ⟨3, _⟩ => ⟨S120, .f32⟩
  | .local _ .vmem, ⟨4, _⟩ => ⟨S120x84, .f32⟩
  | .local _ .vmem, ⟨5, _⟩ => ⟨S84, .f32⟩
  | .local _ .vmem, ⟨6, _⟩ => ⟨S84x5, .f32⟩
  | .local _ .vmem, ⟨7, _⟩ => ⟨S5, .f32⟩
  | .local _ .vmem, ⟨8, _⟩ => ⟨S4096x5x5, .f32⟩
  | .local _ .vmem, ⟨9, _⟩ => ⟨S4096x5x5, .f32⟩
  | _, _ => ⟨S262144x5x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x5x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S120x84 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S84 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S84x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x5x5 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S120x5_S5x120_1_0 : S120x5.Transposes [1, 0] S5x120
  transposes_S84x120_S120x84_1_0 : S84x120.Transposes [1, 0] S120x84
  transposes_S5x84_S84x5_1_0 : S5x84.Transposes [1, 0] S84x5
  inb_S4096x5x5_S4096x5x5_0_0_0 : ∀ a, (![0, 0, 0] : Fin 3 → Nat) a + S4096x5x5.size a ≤ S4096x5x5.size a
  h_S4096x5x5 : 0 < S4096x5x5.numel
  shapeCasts_S4096x5x5_S20480x5 : S4096x5x5.ShapeCasts S20480x5
  inb_S5x120_S5x120_0_0 : ∀ a, (![0, 0] : Fin 2 → Nat) a + S5x120.size a ≤ S5x120.size a
  h_S5x120 : 0 < S5x120.numel
  shapeCasts_S5x120_S5x120 : S5x120.ShapeCasts S5x120
  inb_S120_S120_0 : ∀ a, (![0] : Fin 1 → Nat) a + S120.size a ≤ S120.size a
  h_S120 : 0 < S120.numel
  inb_S120x84_S120x84_0_0 : ∀ a, (![0, 0] : Fin 2 → Nat) a + S120x84.size a ≤ S120x84.size a
  h_S120x84 : 0 < S120x84.numel
  shapeCasts_S120x84_S120x84 : S120x84.ShapeCasts S120x84
  inb_S84_S84_0 : ∀ a, (![0] : Fin 1 → Nat) a + S84.size a ≤ S84.size a
  h_S84 : 0 < S84.numel
  inb_S84x5_S84x5_0_0 : ∀ a, (![0, 0] : Fin 2 → Nat) a + S84x5.size a ≤ S84x5.size a
  h_S84x5 : 0 < S84x5.numel
  shapeCasts_S84x5_S84x5 : S84x5.ShapeCasts S84x5
  inb_S5_S5_0 : ∀ a, (![0] : Fin 1 → Nat) a + S5.size a ≤ S5.size a
  h_S5 : 0 < S5.numel
  shapeCasts_S120_S1x120 : S120.ShapeCasts S1x120
  broadcasts_S1x120_S20480x120 : S1x120.Broadcasts S20480x120
  shapeCasts_S84_S1x84 : S84.ShapeCasts S1x84
  broadcasts_S1x84_S20480x84 : S1x84.Broadcasts S20480x84
  shapeCasts_S5_S1x5 : S5.ShapeCasts S1x5
  broadcasts_S1x5_S20480x5 : S1x5.Broadcasts S20480x5
  reduces_S20480x5_S20480 : S20480x5.Reduces [1] S20480
  shapeCasts_S20480_S20480x1 : S20480.ShapeCasts S20480x1
  broadcasts_S20480x1_S20480x5 : S20480x1.Broadcasts S20480x5
  shapeCasts_S20480x5_S4096x5x5 : S20480x5.ShapeCasts S4096x5x5
  dot_S20480x5_S5x120_S20480x120_1_0_0_1_n_n_wf : DotDims.WF S20480x5 S5x120 S20480x120 [1] [0] [0] [1] [] []
  dot_S20480x120_S120x84_S20480x84_1_0_0_1_n_n_wf : DotDims.WF S20480x120 S120x84 S20480x84 [1] [0] [0] [1] [] []
  dot_S20480x84_S84x5_S20480x5_1_0_0_1_n_n_wf : DotDims.WF S20480x84 S84x5 S20480x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x5x5.size a ≤ S262144x5x5.size a
  hwx0_0 : ∀ i : grid0.Coords, EltTy.bits .f32 = 32 ∨ (Rect.block (s := S262144x5x5) S4096x5x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x120.size a ≤ S5x120.size a
  hwx0_1 : ∀ i : grid0.Coords, EltTy.bits .f32 = 32 ∨ (Rect.block (s := S5x120) S5x120.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S120.size a ≤ S120.size a
  hwx0_2 : ∀ i : grid0.Coords, EltTy.bits .f32 = 32 ∨ (Rect.block (s := S120) S120.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S120x84.size a ≤ S120x84.size a
  hwx0_3 : ∀ i : grid0.Coords, EltTy.bits .f32 = 32 ∨ (Rect.block (s := S120x84) S120x84.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S84.size a ≤ S84.size a
  hwx0_4 : ∀ i : grid0.Coords, EltTy.bits .f32 = 32 ∨ (Rect.block (s := S84) S84.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S84x5.size a ≤ S84x5.size a
  hwx0_5 : ∀ i : grid0.Coords, EltTy.bits .f32 = 32 ∨ (Rect.block (s := S84x5) S84x5.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5.size a ≤ S5.size a
  hwx0_6 : ∀ i : grid0.Coords, EltTy.bits .f32 = 32 ∨ (Rect.block (s := S5) S5.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x5x5.size a ≤ S262144x5x5.size a
  hwx0_7 : ∀ i : grid0.Coords, EltTy.bits .f32 = 32 ∨ (Rect.block (s := S262144x5x5) S4096x5x5.size (cc0_transform_7 i) (hinb0_7 i)).WholeWords (EltTy.packing .f32)

variable [Facts₀]

def dot_S20480x5_S5x120_S20480x120_1_0_0_1_n_n : DotDims S20480x5 S5x120 S20480x120 where
  lhsContracting := [1]
  rhsContracting := [0]
  lhsNonContracting := [0]
  rhsNonContracting := [1]
  lhsBatch := []
  rhsBatch := []
  wf := dot_S20480x5_S5x120_S20480x120_1_0_0_1_n_n_wf
def dot_S20480x120_S120x84_S20480x84_1_0_0_1_n_n : DotDims S20480x120 S120x84 S20480x84 where
  lhsContracting := [1]
  rhsContracting := [0]
  lhsNonContracting := [0]
  rhsNonContracting := [1]
  lhsBatch := []
  rhsBatch := []
  wf := dot_S20480x120_S120x84_S20480x84_1_0_0_1_n_n_wf
def dot_S20480x84_S84x5_S20480x5_1_0_0_1_n_n : DotDims S20480x84 S84x5 S20480x5 where
  lhsContracting := [1]
  rhsContracting := [0]
  lhsNonContracting := [0]
  rhsNonContracting := [1]
  lhsBatch := []
  rhsBatch := []
  wf := dot_S20480x84_S84x5_S20480x5_1_0_0_1_n_n_wf

abbrev win0_0 : Pipeline.Window sig grid0 :=
  Pipeline.Window.ofSpec (Memref.whole main_arg0) S4096x5x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5x120.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S120.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S120x84.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S84.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S84x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S5.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S4096x5x5.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x5x5 : Shape := ⟨3, ![262144, 5, 5]⟩
abbrev S120x5 : Shape := ⟨2, ![120, 5]⟩
abbrev S120 : Shape := ⟨1, ![120]⟩
abbrev S84x120 : Shape := ⟨2, ![84, 120]⟩
abbrev S84 : Shape := ⟨1, ![84]⟩
abbrev S5x84 : Shape := ⟨2, ![5, 84]⟩
abbrev S5 : Shape := ⟨1, ![5]⟩
abbrev S262144x5x120 : Shape := ⟨3, ![262144, 5, 120]⟩
abbrev S1x1x120 : Shape := ⟨3, ![1, 1, 120]⟩
abbrev S_ : Shape := ⟨0, ![]⟩
abbrev S262144x5x84 : Shape := ⟨3, ![262144, 5, 84]⟩
abbrev S1x1x84 : Shape := ⟨3, ![1, 1, 84]⟩
abbrev S1x1x5 : Shape := ⟨3, ![1, 1, 5]⟩
abbrev S262144x5 : Shape := ⟨2, ![262144, 5]⟩
abbrev S262144x5x1 : Shape := ⟨3, ![262144, 5, 1]⟩

abbrev nBuf : Space → Nat
  | .hbm => 45
  | .vmem => 0
  | .smem => 0
  | _ => 0

abbrev bufTy : (tb : Table) → Fin (tcTables nBuf tb) → BufTy
  | .hbm, ⟨0, _⟩ => ⟨S262144x5x5, .f32⟩
  | .hbm, ⟨1, _⟩ => ⟨S120x5, .f32⟩
  | .hbm, ⟨2, _⟩ => ⟨S120, .f32⟩
  | .hbm, ⟨3, _⟩ => ⟨S84x120, .f32⟩
  | .hbm, ⟨4, _⟩ => ⟨S84, .f32⟩
  | .hbm, ⟨5, _⟩ => ⟨S5x84, .f32⟩
  | .hbm, ⟨6, _⟩ => ⟨S5, .f32⟩
  | .hbm, ⟨7, _⟩ => ⟨S262144x5x120, .f32⟩
  | .hbm, ⟨8, _⟩ => ⟨S1x1x120, .f32⟩
  | .hbm, ⟨9, _⟩ => ⟨S262144x5x120, .f32⟩
  | .hbm, ⟨10, _⟩ => ⟨S262144x5x120, .f32⟩
  | .hbm, ⟨11, _⟩ => ⟨S_, .f32⟩
  | .hbm, ⟨12, _⟩ => ⟨S262144x5x120, .f32⟩
  | .hbm, ⟨13, _⟩ => ⟨S262144x5x120, .f32⟩
  | .hbm, ⟨14, _⟩ => ⟨S262144x5x84, .f32⟩
  | .hbm, ⟨15, _⟩ => ⟨S1x1x84, .f32⟩
  | .hbm, ⟨16, _⟩ => ⟨S262144x5x84, .f32⟩
  | .hbm, ⟨17, _⟩ => ⟨S262144x5x84, .f32⟩
  | .hbm, ⟨18, _⟩ => ⟨S_, .f32⟩
  | .hbm, ⟨19, _⟩ => ⟨S262144x5x84, .f32⟩
  | .hbm, ⟨20, _⟩ => ⟨S262144x5x84, .f32⟩
  | .hbm, ⟨21, _⟩ => ⟨S262144x5x5, .f32⟩
  | .hbm, ⟨22, _⟩ => ⟨S1x1x5, .f32⟩
  | .hbm, ⟨23, _⟩ => ⟨S262144x5x5, .f32⟩
  | .hbm, ⟨24, _⟩ => ⟨S262144x5x5, .f32⟩
  | .hbm, ⟨25, _⟩ => ⟨S_, .f32⟩
  | .hbm, ⟨26, _⟩ => ⟨S262144x5x5, .f32⟩
  | .hbm, ⟨27, _⟩ => ⟨S262144x5x5, .f32⟩
  | .hbm, ⟨28, _⟩ => ⟨S262144x5x5, .f32⟩
  | .hbm, ⟨29, _⟩ => ⟨S_, .f32⟩
  | .hbm, ⟨30, _⟩ => ⟨S262144x5, .f32⟩
  | .hbm, ⟨31, _⟩ => ⟨S262144x5x1, .f32⟩
  | .hbm, ⟨32, _⟩ => ⟨S262144x5x1, .f32⟩
  | .hbm, ⟨33, _⟩ => ⟨S_, .f32⟩
  | .hbm, ⟨34, _⟩ => ⟨S262144x5x1, .f32⟩
  | .hbm, ⟨35, _⟩ => ⟨S262144x5x1, .f32⟩
  | .hbm, ⟨36, _⟩ => ⟨S262144x5x5, .f32⟩
  | .hbm, ⟨37, _⟩ => ⟨S262144x5x5, .f32⟩
  | .hbm, ⟨38, _⟩ => ⟨S_, .f32⟩
  | .hbm, ⟨39, _⟩ => ⟨S262144x5x5, .f32⟩
  | .hbm, ⟨40, _⟩ => ⟨S262144x5x5, .i1⟩
  | .hbm, ⟨41, _⟩ => ⟨S_, .f32⟩
  | .hbm, ⟨42, _⟩ => ⟨S_, .f32⟩
  | .hbm, ⟨43, _⟩ => ⟨S262144x5x5, .f32⟩
  | .hbm, ⟨44, _⟩ => ⟨S262144x5x5, .f32⟩
  | _, _ => ⟨S262144x5x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call2_cst : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_call3_v0 : Ref sig .tc := ⟨.hbm, 42, rfl⟩
abbrev main_call3_v1 : Ref sig .tc := ⟨.hbm, 43, rfl⟩
abbrev main_v25 : Ref sig .tc := ⟨.hbm, 44, rfl⟩

abbrev nD : Nat := 1
abbrev τ : Topo := Topo.v7x

variable {F : FTy → Type} [FloatOps F]

class Facts₀ : Prop where
  bcast_S120_S1x1x120_2 : S120.BroadcastsInDim S1x1x120 (![2] : Fin 1 → Fin S1x1x120.rank)
  bcast_S1x1x120_S262144x5x120_0_1_2 : S1x1x120.BroadcastsInDim S262144x5x120 (![0, 1, 2] : Fin 3 → Fin S262144x5x120.rank)
  bcast_S_S262144x5x120 : S_.BroadcastsInDim S262144x5x120 (![] : Fin 0 → Fin S262144x5x120.rank)
  bcast_S84_S1x1x84_2 : S84.BroadcastsInDim S1x1x84 (![2] : Fin 1 → Fin S1x1x84.rank)
  bcast_S1x1x84_S262144x5x84_0_1_2 : S1x1x84.BroadcastsInDim S262144x5x84 (![0, 1, 2] : Fin 3 → Fin S262144x5x84.rank)
  bcast_S_S262144x5x84 : S_.BroadcastsInDim S262144x5x84 (![] : Fin 0 → Fin S262144x5x84.rank)
  bcast_S5_S1x1x5_2 : S5.BroadcastsInDim S1x1x5 (![2] : Fin 1 → Fin S1x1x5.rank)
  bcast_S1x1x5_S262144x5x5_0_1_2 : S1x1x5.BroadcastsInDim S262144x5x5 (![0, 1, 2] : Fin 3 → Fin S262144x5x5.rank)
  bcast_S_S262144x5x5 : S_.BroadcastsInDim S262144x5x5 (![] : Fin 0 → Fin S262144x5x5.rank)
  reducesTo_S262144x5x5_S262144x5_d2 : S262144x5x5.ReducesTo [2] S262144x5
  h_S_ : 0 < S_.numel
  bcast_S262144x5_S262144x5x1_0_1 : S262144x5.BroadcastsInDim S262144x5x1 (![0, 1] : Fin 2 → Fin S262144x5x1.rank)
  bcast_S_S262144x5x1 : S_.BroadcastsInDim S262144x5x1 (![] : Fin 0 → Fin S262144x5x1.rank)
  bcast_S262144x5x1_S262144x5x5_0_1_2 : S262144x5x1.BroadcastsInDim S262144x5x5 (![0, 1, 2] : Fin 3 → Fin S262144x5x5.rank)
  dot_S262144x5x5_S120x5_S262144x5x120_2_1_01_0_n_n_wf : DotDims.WF S262144x5x5 S120x5 S262144x5x120 [2] [1] [0, 1] [0] [] []
  dot_S262144x5x120_S84x120_S262144x5x84_2_1_01_0_n_n_wf : DotDims.WF S262144x5x120 S84x120 S262144x5x84 [2] [1] [0, 1] [0] [] []
  dot_S262144x5x84_S5x84_S262144x5x5_2_1_01_0_n_n_wf : DotDims.WF S262144x5x84 S5x84 S262144x5x5 [2] [1] [0, 1] [0] [] []

variable [Facts₀]

def dot_S262144x5x5_S120x5_S262144x5x120_2_1_01_0_n_n : DotDims S262144x5x5 S120x5 S262144x5x120 where
  lhsContracting := [2]
  rhsContracting := [1]
  lhsNonContracting := [0, 1]
  rhsNonContracting := [0]
  lhsBatch := []
  rhsBatch := []
  wf := dot_S262144x5x5_S120x5_S262144x5x120_2_1_01_0_n_n_wf
def dot_S262144x5x120_S84x120_S262144x5x84_2_1_01_0_n_n : DotDims S262144x5x120 S84x120 S262144x5x84 where
  lhsContracting := [2]
  rhsContracting := [1]
  lhsNonContracting := [0, 1]
  rhsNonContracting := [0]
  lhsBatch := []
  rhsBatch := []
  wf := dot_S262144x5x120_S84x120_S262144x5x84_2_1_01_0_n_n_wf
def dot_S262144x5x84_S5x84_S262144x5x5_2_1_01_0_n_n : DotDims S262144x5x84 S5x84 S262144x5x5 where
  lhsContracting := [2]
  rhsContracting := [1]
  lhsNonContracting := [0, 1]
  rhsNonContracting := [0]
  lhsBatch := []
  rhsBatch := []
  wf := dot_S262144x5x84_S5x84_S262144x5x5_2_1_01_0_n_n_wf

class Facts : Prop extends Facts₀ where

variable [Facts]
-- ==== Proof.Spec.lean ====
/-
  What the network computes on ONE row of five numbers, and the whole result array built from it.

  A row x ∈ E⁵ (E the extended reals) goes through three dense layers, each followed by the rectifier against the
  zero word z:

      h₁[j] = max (Σ_k x[k]·W₁[j,k] + b₁[j]) z      (j < 120)
      h₂[g] = max (Σ_j h₁[j]·W₂[g,j] + b₂[g]) z     (g < 84)
      h₃[o] = max (Σ_g h₂[g]·W₃[o,g] + b₃[o]) z     (o < 5)

  then is divided by its Euclidean length clamped below by the word e,  h₃[o] / max (√(Σ_k h₃[k]²)) e,  and entry o is
  replaced by z wherever the input x[o] differs from z.  The result array holds, at (b, s, o), that value for the row
  x[b, s, ·].  The two literals stay bit patterns: the same words occur on both sides and are never evaluated.
-/
import Idealize.ShloMosaic.PureOps.Ideal.Laws
import Idealize.ShloMosaic.Lib.ValueIdx

noncomputable section

open scoped BigOperators

namespace Cert.Mlp

open Idealize.ShloMosaic Idealize.ShloMosaic.ValueIdx

/-- The zero word and the clamp word of both programs, as extended reals. -/
abbrev z : EReal := Ideal.ofBits .f32 0x00000000#32
abbrev e : EReal := Ideal.ofBits .f32 0x2B8CBCCC#32

/-- One dense layer followed by the rectifier: entry j of max (a·Wᵀ + b) z, with W stored [out, in]. -/
def dense {K J : Nat} (a : Fin K → EReal) (w : Fin J → Fin K → EReal) (b : Fin J → EReal) (j : Fin J) : EReal :=
  max ((∑ k : Fin K, a k * w j k) + b j) z

/-- A row divided by its Euclidean length clamped below by e. -/
def unitRow {N : Nat} (h : Fin N → EReal) (o : Fin N) : EReal :=
  Ideal.div (h o) (max (Ideal.sqrt (∑ k : Fin N, h k * h k)) e)

/-- The three layers on one row. -/
def hidden (x : Fin 5 → EReal) (W1 : Fin 120 → Fin 5 → EReal) (b1 : Fin 120 → EReal) (W2 : Fin 84 → Fin 120 → EReal)
    (b2 : Fin 84 → EReal) (W3 : Fin 5 → Fin 84 → EReal) (b3 : Fin 5 → EReal) : Fin 5 → EReal :=
  dense (dense (dense x W1 b1) W2 b2) W3 b3

/-- One row of the result: the normalised third layer, zeroed where the input entry is not the zero word. -/
def rowOut (x : Fin 5 → EReal) (W1 : Fin 120 → Fin 5 → EReal) (b1 : Fin 120 → EReal) (W2 : Fin 84 → Fin 120 → EReal)
    (b2 : Fin 84 → EReal) (W3 : Fin 5 → Fin 84 → EReal) (b3 : Fin 5 → EReal) (o : Fin 5) : EReal :=
  Scalar.select (Ideal.cmp .one (x o) z) z (unitRow (hidden x W1 b1 W2 b2 W3 b3) o)

/-- The row function depends on its arguments only through their values. -/
theorem rowOut_congr {x x' : Fin 5 → EReal} {W1 W1' : Fin 120 → Fin 5 → EReal} {b1 b1' : Fin 120 → EReal}
    {W2 W2' : Fin 84 → Fin 120 → EReal} {b2 b2' : Fin 84 → EReal} {W3 W3' : Fin 5 → Fin 84 → EReal} {b3 b3' : Fin 5 → EReal}
    {o o' : Fin 5} (hx : ∀ k, x k = x' k) (h1 : ∀ j k, W1 j k = W1' j k) (hb1 : ∀ j, b1 j = b1' j)
    (h2 : ∀ g j, W2 g j = W2' g j) (hb2 : ∀ g, b2 g = b2' g) (h3 : ∀ o g, W3 o g = W3' o g) (hb3 : ∀ o, b3 o = b3' o)
    (ho : o = o') : rowOut x W1 b1 W2 b2 W3 b3 o = rowOut x' W1' b1' W2' b2' W3' b3' o' := by
  obtain rfl : x = x' := funext hx
  obtain rfl : W1 = W1' := funext fun j => funext (h1 j)
  obtain rfl : b1 = b1' := funext hb1
  obtain rfl : W2 = W2' := funext fun g => funext (h2 g)
  obtain rfl : b2 = b2' := funext hb2
  obtain rfl : W3 = W3' := funext fun o => funext (h3 o)
  obtain rfl : b3 = b3' := funext hb3
  rw [ho]

/-- The whole result as one function of the seven argument arrays, index by index. -/
def G (x : (⟨3, ![262144, 5, 5]⟩ : Shape).Idx → EReal) (W1 : (⟨2, ![120, 5]⟩ : Shape).Idx → EReal)
    (b1 : (⟨1, ![120]⟩ : Shape).Idx → EReal) (W2 : (⟨2, ![84, 120]⟩ : Shape).Idx → EReal)
    (b2 : (⟨1, ![84]⟩ : Shape).Idx → EReal) (W3 : (⟨2, ![5, 84]⟩ : Shape).Idx → EReal)
    (b3 : (⟨1, ![5]⟩ : Shape).Idx → EReal) : (⟨3, ![262144, 5, 5]⟩ : Shape).Idx → EReal :=
  fun i => rowOut (fun k => x (ix3 (i 0) (i 1) k)) (fun j k => W1 (ix2 j k)) (fun j => b1 (ix1 j))
    (fun g j => W2 (ix2 g j)) (fun g => b2 (ix1 g)) (fun o g => W3 (ix2 o g)) (fun o => b3 (ix1 o)) (i 2)

end Cert.Mlp

end
-- ==== Proof.LibDotAt.lean ====
/-
  A matrix product read at one entry.

  For dimension numbers that contract the second axis of an M × K left operand with the first axis of a K × N right
  operand, with no batch axis, both the vector unit's matmul into a zero accumulator and the host's dot_general are, at
  the ideal values and at the output entry (p, q), the plain sum  Σ_{k < K} l[p,k] · r[k,q].  The four hypotheses say
  where the dimension numbers send an output index and a contraction index; for a printed record each is one line
  (unfold the operand index and decide which axes are batch, kept or contracted). Any extents.
-/
import Idealize.ShloMosaic.PureOps.Ideal.Laws
import Idealize.ShloMosaic.Lib.ValueIdx

noncomputable section

open scoped BigOperators

namespace Cert.LibDotAt

open Idealize.ShloMosaic Idealize.ShloMosaic.ValueIdx

variable {M K N : Nat} {φ₁ φ₂ : FTy}

/-- The operand indices of a plain M×K by K×N product, once the contraction index is the coordinate `k`. -/
theorem operand_idx (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (p : Fin M) (q : Fin N) (k : Fin K) :
    D.lhsIdx (ix2 p q) ((contrEquiv1 D K hr hs).symm k) = ix2 p k
      ∧ D.rhsIdx (ix2 p q) ((contrEquiv1 D K hr hs).symm k) = ix2 k q := by
  have hk := contrEquiv1_symm_val D K hr hs k
  constructor
  · funext a; apply Fin.ext
    match a with
    | ⟨0, _⟩ => exact hl0 _ _
    | ⟨1, _⟩ => exact (hl1 _ _).trans hk
  · funext a; apply Fin.ext
    match a with
    | ⟨0, _⟩ => exact (hr0 _ _).trans hk
    | ⟨1, _⟩ => exact hr1 _ _

/-- The vector unit's matmul into the zero accumulator, at entry (p, q). -/
theorem matmul_zero_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (l : FVec Ideal ⟨2, ![M, K]⟩ φ₁) (r : FVec Ideal ⟨2, ![K, N]⟩ φ₂)
    (p : Fin M) (q : Fin N) :
    FloatOps.matmul D prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p q k
  rw [el, er]

/-- The host's dot_general, at entry (p, q): the same sum, whatever the schedule. -/
theorem dotGeneral_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  rw [Ideal.dotGeneral_apply, ← Equiv.sum_comp (contrEquiv1 D K hr hs).symm]
  refine Finset.sum_congr rfl fun k _ => ?_
  obtain ⟨el, er⟩ := operand_idx D hr hs hl0 hl1 hr0 hr1 p q k
  rw [el, er]

end Cert.LibDotAt

end
-- ==== Proof.LibKeepdims.lean ====
/-
  Layout operations that keep or re-insert a UNIT axis, read at an index written by coordinates: the column forms a
  reduction with the reduced axis kept needs. A vector viewed as a column, a column repeated along its unit axis, and
  a matrix with a unit axis inserted between its two axes. Each is the general read-at-an-index lemma of the layout
  operation with the row-major positions (for a cast) or the per-axis coordinates (for a broadcast) worked out once.
  They hold for any extents and any element type.
-/
import Idealize.ShloMosaic.Lib.ValueLayout

namespace Idealize.ShloMosaic.Keepdims

open Idealize.ShloMosaic Idealize.ShloMosaic.ValueIdx

variable {α : Type}

/-- A vector of `a` entries cast to the column `[a, 1]` reads, at `(i, u)`, the vector at `i`: the column's
    row-major position `i * 1 + u` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`: every entry of a
    row is that row's one value. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A matrix `[a, b]` cast to `[a, 1, b]` reads, at `(i, u, j)`, the matrix at `(i, j)`: the inserted unit axis
    does not move the row-major position. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.Keepdims
-- ==== Proof.LibDenseAt.lean ====
/-
  Two pieces of a small network on the vector unit, each read at one entry (p, q) of a matrix at the ideal values.

  A dense layer with the rectifier: the product of an M × K matrix l with a K × N matrix w into the zero accumulator,
  plus a bias vector of N entries reshaped to one row and repeated down the M rows, clamped below by the splat of a
  scalar word c, is at (p, q)

      max (Σ_{k < K} l[p,k] · w[k,q] + bias[q]) c.

  A row divided by its clamped Euclidean length: y divided by the column  max (√(Σ_k y[·,k]²)) c  repeated along the
  columns (the sum taken along axis 1 with that axis kept as a unit axis) is at (p, q)

      y[p,q] / max (√(Σ_{k < N} y[p,k] · y[p,k])) c.

  The hypotheses on the dimension numbers are those of a plain product (one line each for a printed record). Any extents.
-/
import proofs.«175537_j17360257811096_1_alg».proof.Proof.LibDotAt
import proofs.«175537_j17360257811096_1_alg».proof.Proof.LibKeepdims
import Idealize.ShloMosaic.Lib.ValueLayout
import Idealize.ShloMosaic.Lib.Pipeline.Value

noncomputable section

open scoped BigOperators

namespace Cert.LibDenseAt

open Idealize.ShloMosaic Idealize.ShloMosaic.ValueIdx

variable {M K N : Nat}

/-- A dense layer followed by the rectifier against the word c, at entry (p, q). -/
theorem dense_relu_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (l : FVec Ideal ⟨2, ![M, K]⟩ .f32) (w : FVec Ideal ⟨2, ![K, N]⟩ .f32)
    (hw : (⟨2, ![K, N]⟩ : Shape).ShapeCasts ⟨2, ![K, N]⟩) (bias : FVec Ideal ⟨1, ![N]⟩ .f32)
    (hc : (⟨1, ![N]⟩ : Shape).ShapeCasts ⟨2, ![1, N]⟩) (hb : (⟨2, ![1, N]⟩ : Shape).Broadcasts ⟨2, ![M, N]⟩)
    (c : BitVec 32) (p : Fin M) (q : Fin N) :
    maximumf (addf (FloatOps.matmul D prec l (shapeCast ⟨2, ![K, N]⟩ w hw) (constant (F := Ideal) ⟨2, ![M, N]⟩ .f32 0x00000000#32))
        (broadcastTo ⟨2, ![M, N]⟩ (shapeCast ⟨2, ![1, N]⟩ bias hc) hb))
      (broadcast ⟨2, ![M, N]⟩ (Scalar.ofBits (F := Ideal) .f32 c)) (ix2 p q)
      = max ((∑ k : Fin K, l (ix2 p k) * w (ix2 k q)) + bias (ix1 q)) (Ideal.ofBits .f32 c) := by
  rw [maximumf_apply, addf_apply, broadcast_apply, LibDotAt.matmul_zero_ix2 D hr hs hl0 hl1 hr0 hr1, shapeCast_self,
    broadcastTo_1b_ab_apply, shapeCast_a_1a_apply]
  rfl

/-- A matrix divided by the column of its rows' clamped Euclidean lengths, at entry (p, q). -/
theorem unit_row_ix2 (y : FVec Ideal ⟨2, ![M, N]⟩ .f32) (hred : (⟨2, ![M, N]⟩ : Shape).Reduces [(1 : Fin 2)] ⟨1, ![M]⟩)
    (hφ : FKind.Formats FTy.f32) (hacc : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩)
    (c : BitVec 32) (p : Fin M) (q : Fin N) :
    divf y (broadcastTo ⟨2, ![M, N]⟩ (maximumf (sqrt (shapeCast ⟨2, ![M, 1]⟩
        (multiReduction .add [(1 : Fin 2)] ⟨1, ![M]⟩ (mulf y y) 0x00000000#32 hred hφ hacc) hc))
        (broadcast ⟨2, ![M, 1]⟩ (Scalar.ofBits (F := Ideal) .f32 c))) hb) (ix2 p q)
      = Ideal.div (y (ix2 p q)) (max (Ideal.sqrt (∑ k : Fin N, y (ix2 p k) * y (ix2 p k))) (Ideal.ofBits .f32 c)) := by
  rw [divf_apply, Keepdims.broadcastTo_a1_ab_apply, maximumf_apply, broadcast_apply]
  show Ideal.div _ (max (Ideal.sqrt (shapeCast ⟨2, ![M, 1]⟩ _ hc (ix2 p (0 : Fin 1)))) _) = _
  rw [Keepdims.shapeCast_a_a1_apply, Ideal.multiReduction_add_single]
  refine congrArg (fun s => Ideal.div (y (ix2 p q)) (max (Ideal.sqrt s) (Ideal.ofBits .f32 c))) ?_
  show ∑ k : Fin N, mulf y y (hred.lift (ix1 p) k) = _
  refine Finset.sum_congr rfl fun k _ => ?_
  have e : hred.lift (ix1 p) k = ix2 p k :=
    funext fun a => Fin.ext (by match a with | ⟨0, _⟩ => rfl | ⟨1, _⟩ => rfl)
  rw [e]; rfl

end Cert.LibDenseAt

end
-- ==== Proof.KernelRow.lean ====
/-
  The kernel body's value on one block, read one row at a time.

  The body views its 4096 × 5 × 5 block as 20480 rows of five numbers (row b·5 + s is board b, line s), runs the three
  dense layers with the rectifier as three plain matrix products against the weights it is handed already transposed
  ([in, out]), divides each row by its clamped Euclidean length, zeroes the entries whose input is not the zero word,
  and views the result as a 4096 × 5 × 5 block again.  At (b, s, o) that is the spec's row function of the block's row
  (b, s, ·), with the weights read at swapped coordinates.
-/
import proofs.«175537_j17360257811096_1_alg».proof.Proof.Gen.KernelIdeal.Skeleton
import proofs.«175537_j17360257811096_1_alg».proof.Proof.Spec
import proofs.«175537_j17360257811096_1_alg».proof.Proof.LibDenseAt

noncomputable section

open scoped BigOperators

namespace Cert.Mlp.Ker

open Cert.KernelIdeal Cert.KernelIdeal.Gen Idealize.ShloMosaic Idealize.ShloMosaic.ValueIdx

/-! ## The three products' dimension numbers: plain rows-by-columns products -/

local notation "D1" => dot_S20480x5_S5x120_S20480x120_1_0_0_1_n_n
local notation "D2" => dot_S20480x120_S120x84_S20480x84_1_0_0_1_n_n
local notation "D3" => dot_S20480x84_S84x5_S20480x5_1_0_0_1_n_n

theorem d1_l0 (j : S20480x120.Idx) (c : (D1).contr.Idx) : ((D1).lhsIdx j c 0).val = (j 0).val := by
  unfold DotDims.lhsIdx
  rw [dif_neg (show ¬(0 : Fin S20480x5.rank) ∈ (D1).lhsBatch by decide), dif_pos (show (0 : Fin S20480x5.rank) ∈ (D1).lhsNonContracting by decide)]
  rfl
theorem d1_l1 (j : S20480x120.Idx) (c : (D1).contr.Idx) : ((D1).lhsIdx j c 1).val = (c ⟨0, by decide⟩).val :=
  (D1).lhsIdx_val_of_single rfl j c
theorem d1_r0 (j : S20480x120.Idx) (c : (D1).contr.Idx) : ((D1).rhsIdx j c 0).val = (c ⟨0, by decide⟩).val :=
  (D1).rhsIdx_val_of_single rfl j c
theorem d1_r1 (j : S20480x120.Idx) (c : (D1).contr.Idx) : ((D1).rhsIdx j c 1).val = (j 1).val := by
  unfold DotDims.rhsIdx
  rw [dif_neg (show ¬(1 : Fin S5x120.rank) ∈ (D1).rhsBatch by decide), dif_pos (show (1 : Fin S5x120.rank) ∈ (D1).rhsNonContracting by decide)]
  rfl

theorem d2_l0 (j : S20480x84.Idx) (c : (D2).contr.Idx) : ((D2).lhsIdx j c 0).val = (j 0).val := by
  unfold DotDims.lhsIdx
  rw [dif_neg (show ¬(0 : Fin S20480x120.rank) ∈ (D2).lhsBatch by decide), dif_pos (show (0 : Fin S20480x120.rank) ∈ (D2).lhsNonContracting by decide)]
  rfl
theorem d2_l1 (j : S20480x84.Idx) (c : (D2).contr.Idx) : ((D2).lhsIdx j c 1).val = (c ⟨0, by decide⟩).val :=
  (D2).lhsIdx_val_of_single rfl j c
theorem d2_r0 (j : S20480x84.Idx) (c : (D2).contr.Idx) : ((D2).rhsIdx j c 0).val = (c ⟨0, by decide⟩).val :=
  (D2).rhsIdx_val_of_single rfl j c
theorem d2_r1 (j : S20480x84.Idx) (c : (D2).contr.Idx) : ((D2).rhsIdx j c 1).val = (j 1).val := by
  unfold DotDims.rhsIdx
  rw [dif_neg (show ¬(1 : Fin S120x84.rank) ∈ (D2).rhsBatch by decide), dif_pos (show (1 : Fin S120x84.rank) ∈ (D2).rhsNonContracting by decide)]
  rfl

theorem d3_l0 (j : S20480x5.Idx) (c : (D3).contr.Idx) : ((D3).lhsIdx j c 0).val = (j 0).val := by
  unfold DotDims.lhsIdx
  rw [dif_neg (show ¬(0 : Fin S20480x84.rank) ∈ (D3).lhsBatch by decide), dif_pos (show (0 : Fin S20480x84.rank) ∈ (D3).lhsNonContracting by decide)]
  rfl
theorem d3_l1 (j : S20480x5.Idx) (c : (D3).contr.Idx) : ((D3).lhsIdx j c 1).val = (c ⟨0, by decide⟩).val :=
  (D3).lhsIdx_val_of_single rfl j c
theorem d3_r0 (j : S20480x5.Idx) (c : (D3).contr.Idx) : ((D3).rhsIdx j c 0).val = (c ⟨0, by decide⟩).val :=
  (D3).rhsIdx_val_of_single rfl j c
theorem d3_r1 (j : S20480x5.Idx) (c : (D3).contr.Idx) : ((D3).rhsIdx j c 1).val = (j 1).val := by
  unfold DotDims.rhsIdx
  rw [dif_neg (show ¬(1 : Fin S84x5.rank) ∈ (D3).rhsBatch by decide), dif_pos (show (1 : Fin S84x5.rank) ∈ (D3).rhsNonContracting by decide)]
  rfl

/-! ## The body's stages as matrices of 20480 rows -/

variable (x0 : FVec Ideal S4096x5x5 .f32) (x1 : FVec Ideal S5x120 .f32) (x2 : FVec Ideal S120 .f32)
  (x3 : FVec Ideal S120x84 .f32) (x4 : FVec Ideal S84 .f32) (x5 : FVec Ideal S84x5 .f32) (x6 : FVec Ideal S5 .f32)

/-- Row b·5 + s of the 20480-row view: board b, line s. -/
def row (b : Fin 4096) (s : Fin 5) : Fin 20480 := ⟨b.val * 5 + s.val, by have := b.isLt; have := s.isLt; omega⟩

/-- The first layer after its rectifier. -/
def layer1 : FVec Ideal S20480x120 .f32 :=
  maximumf (addf (matmul D1 none (k0_pay2 (F := Ideal) x0) (shapeCast S5x120 x1 shapeCasts_S5x120_S5x120) (constant S20480x120 .f32 0x00000000#32))
      (broadcastTo S20480x120 (shapeCast S1x120 x2 shapeCasts_S120_S1x120) broadcasts_S1x120_S20480x120))
    (broadcast S20480x120 (Scalar.ofBits .f32 0x00000000#32))

/-- The second layer after its rectifier. -/
def layer2 : FVec Ideal S20480x84 .f32 :=
  maximumf (addf (matmul D2 none (layer1 x0 x1 x2) (shapeCast S120x84 x3 shapeCasts_S120x84_S120x84) (constant S20480x84 .f32 0x00000000#32))
      (broadcastTo S20480x84 (shapeCast S1x84 x4 shapeCasts_S84_S1x84) broadcasts_S1x84_S20480x84))
    (broadcast S20480x84 (Scalar.ofBits .f32 0x00000000#32))

/-- The third layer after its rectifier. -/
def layer3 : FVec Ideal S20480x5 .f32 :=
  maximumf (addf (matmul D3 none (layer2 x0 x1 x2 x3 x4) (shapeCast S84x5 x5 shapeCasts_S84x5_S84x5) (constant S20480x5 .f32 0x00000000#32))
      (broadcastTo S20480x5 (shapeCast S1x5 x6 shapeCasts_S5_S1x5) broadcasts_S1x5_S20480x5))
    (broadcast S20480x5 (Scalar.ofBits .f32 0x00000000#32))

/-- The body's quotient is the third layer divided by the column of its rows' clamped lengths. -/
theorem quotient_eq : k0_pay3 (F := Ideal) x0 x1 x2 x3 x4 x5 x6
    = divf (layer3 x0 x1 x2 x3 x4 x5 x6) (broadcastTo S20480x5 (maximumf (sqrt (shapeCast S20480x1
        (multiReduction .add [1] S20480 (mulf (layer3 x0 x1 x2 x3 x4 x5 x6) (layer3 x0 x1 x2 x3 x4 x5 x6)) 0x00000000#32
          reduces_S20480x5_S20480 (.inl rfl) rfl) shapeCasts_S20480_S20480x1))
        (broadcast S20480x1 (Scalar.ofBits .f32 0x2B8CBCCC#32))) broadcasts_S20480x1_S20480x5) := rfl

/-! ## Each stage at one row -/

/-- The 20480-row view of the block at row b·5 + s, column k, is the block at (b, s, k). -/
theorem rows_at (b : Fin 4096) (s : Fin 5) (k : Fin 5) : k0_pay2 (F := Ideal) x0 (ix2 (row b s) k) = x0 (ix3 b s k) :=
  shapeCast_apply x0 shapeCasts_S4096x5x5_S20480x5 (ix2 (row b s) k) (ix3 b s k) (by
    rw [Shape.rowMajor_val_three, Shape.rowMajor_val_two]; rfl)

theorem layer1_at (p : Fin 20480) (j : Fin 120) :
    layer1 x0 x1 x2 (ix2 p j) = dense (fun k => k0_pay2 (F := Ideal) x0 (ix2 p k)) (fun j k => x1 (ix2 k j)) (fun j => x2 (ix1 j)) j :=
  LibDenseAt.dense_relu_ix2 D1 rfl rfl d1_l0 d1_l1 d1_r0 d1_r1 none (k0_pay2 (F := Ideal) x0) x1 shapeCasts_S5x120_S5x120 x2
    shapeCasts_S120_S1x120 broadcasts_S1x120_S20480x120 0x00000000#32 p j

theorem layer2_at (p : Fin 20480) (g : Fin 84) :
    layer2 x0 x1 x2 x3 x4 (ix2 p g) = dense (fun j => layer1 x0 x1 x2 (ix2 p j)) (fun g j => x3 (ix2 j g)) (fun g => x4 (ix1 g)) g :=
  LibDenseAt.dense_relu_ix2 D2 rfl rfl d2_l0 d2_l1 d2_r0 d2_r1 none (layer1 x0 x1 x2) x3 shapeCasts_S120x84_S120x84 x4
    shapeCasts_S84_S1x84 broadcasts_S1x84_S20480x84 0x00000000#32 p g

theorem layer3_at (p : Fin 20480) (o : Fin 5) :
    layer3 x0 x1 x2 x3 x4 x5 x6 (ix2 p o)
      = dense (fun g => layer2 x0 x1 x2 x3 x4 (ix2 p g)) (fun o g => x5 (ix2 g o)) (fun o => x6 (ix1 o)) o :=
  LibDenseAt.dense_relu_ix2 D3 rfl rfl d3_l0 d3_l1 d3_r0 d3_r1 none (layer2 x0 x1 x2 x3 x4) x5 shapeCasts_S84x5_S84x5 x6
    shapeCasts_S5_S1x5 broadcasts_S1x5_S20480x5 0x00000000#32 p o

/-- The three layers at row b·5 + s are the spec's hidden row of the block's row (b, s, ·). -/
theorem hidden_at (b : Fin 4096) (s : Fin 5) (o : Fin 5) :
    layer3 x0 x1 x2 x3 x4 x5 x6 (ix2 (row b s) o)
      = hidden (fun k => x0 (ix3 b s k)) (fun j k => x1 (ix2 k j)) (fun j => x2 (ix1 j)) (fun g j => x3 (ix2 j g))
          (fun g => x4 (ix1 g)) (fun o g => x5 (ix2 g o)) (fun o => x6 (ix1 o)) o := by
  rw [layer3_at]
  simp only [layer2_at, layer1_at, rows_at]
  rfl

/-- The body's quotient at row b·5 + s is the spec's normalised hidden row. -/
theorem quotient_at (b : Fin 4096) (s : Fin 5) (o : Fin 5) :
    k0_pay3 (F := Ideal) x0 x1 x2 x3 x4 x5 x6 (ix2 (row b s) o)
      = unitRow (hidden (fun k => x0 (ix3 b s k)) (fun j k => x1 (ix2 k j)) (fun j => x2 (ix1 j)) (fun g j => x3 (ix2 j g))
          (fun g => x4 (ix1 g)) (fun o g => x5 (ix2 g o)) (fun o => x6 (ix1 o))) o := by
  rw [quotient_eq]
  refine (LibDenseAt.unit_row_ix2 (layer3 x0 x1 x2 x3 x4 x5 x6) reduces_S20480x5_S20480 (.inl rfl) rfl
    shapeCasts_S20480_S20480x1 broadcasts_S20480x1_S20480x5 0x2B8CBCCC#32 (row b s) o).trans ?_
  simp only [hidden_at]
  rfl

/-- THE BLOCK the body stores, at (b, s, o): the spec's row function of the input block's row (b, s, ·). -/
theorem block_at (b : Fin 4096) (s : Fin 5) (o : Fin 5) :
    k0_pay1 (k0_pay2 (F := Ideal) x0) (k0_pay3 (F := Ideal) x0 x1 x2 x3 x4 x5 x6) (k0_pay4 (F := Ideal)) (ix3 b s o)
      = rowOut (fun k => x0 (ix3 b s k)) (fun j k => x1 (ix2 k j)) (fun j => x2 (ix1 j)) (fun g j => x3 (ix2 j g))
          (fun g => x4 (ix1 g)) (fun o g => x5 (ix2 g o)) (fun o => x6 (ix1 o)) o := by
  unfold k0_pay1
  refine (shapeCast_apply _ shapeCasts_S20480x5_S4096x5x5 (ix3 b s o) (ix2 (row b s) o) (by
    rw [Shape.rowMajor_val_two, Shape.rowMajor_val_three]; rfl)).trans ?_
  show Scalar.select (FloatOps.cmpf .one (k0_pay2 (F := Ideal) x0 (ix2 (row b s) o)) (k0_pay4 (F := Ideal) (ix2 (row b s) o)))
      (Scalar.ofBits .f32 0x00000000#32) (k0_pay3 (F := Ideal) x0 x1 x2 x3 x4 x5 x6 (ix2 (row b s) o)) = _
  rw [rows_at, quotient_at]
  rfl

/-- The same at any index of the block, by its coordinates. -/
theorem block_apply (y : S4096x5x5.Idx) :
    k0_pay1 (k0_pay2 (F := Ideal) x0) (k0_pay3 (F := Ideal) x0 x1 x2 x3 x4 x5 x6) (k0_pay4 (F := Ideal)) y
      = rowOut (fun k => x0 (ix3 (y 0) (y 1) k)) (fun j k => x1 (ix2 k j)) (fun j => x2 (ix1 j)) (fun g j => x3 (ix2 j g))
          (fun g => x4 (ix1 g)) (fun o g => x5 (ix2 g o)) (fun o => x6 (ix1 o)) (y 2) := by
  exact (congrArg (k0_pay1 (k0_pay2 (F := Ideal) x0) (k0_pay3 (F := Ideal) x0 x1 x2 x3 x4 x5 x6) (k0_pay4 (F := Ideal))) (eq_ix3 y)).trans
    (block_at x0 x1 x2 x3 x4 x5 x6 (y 0) (y 1) (y 2))

end Cert.Mlp.Ker

end
-- ==== Proof.KernelValue.lean ====
/-
  From the blocks to the whole result array.

  Grid point t stages rows t·4096 … t·4096 + 4095 of x and of the result, and the whole of each weight and bias; the
  three weights it stages are the host's transposes of W₁, W₂, W₃, so that a staged weight at (k, j) is W at (j, k).
  What point t writes back is therefore block t of the spec's array G of the seven arguments, the 64 blocks tile the
  result, and after the run the result array is G.
-/
import proofs.«175537_j17360257811096_1_alg».proof.Proof.Gen.KernelIdeal.Frame
import proofs.«175537_j17360257811096_1_alg».proof.Proof.KernelRow
import Idealize.ShloMosaic.Lib.Pipeline.Value
import Idealize.ShloMosaic.Lib.ValueLayout
import Idealize.ShloMosaic.Lib.StableHlo.Run

noncomputable section

namespace Cert.Mlp.Ker

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 64 grid points: x and the result move together along the first axis, one
    block per point; every weight and bias stays at block 0. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-! ## The three weights as the region finds them: the host's transposes -/

theorem V_w1 (c : Dev nD) : (V m c main_v0 : S5x120.Idx → EReal)
    = transpose S5x120 [1, 0] (m ((c : Thread nD τ).loc main_arg1)) transposes_S120x5_S5x120_1_0 := by
  dsimp only [Gen.V, Gen.hostOps0]; after_results

theorem V_w2 (c : Dev nD) : (V m c main_v1 : S120x84.Idx → EReal)
    = transpose S120x84 [1, 0] (m ((c : Thread nD τ).loc main_arg3)) transposes_S84x120_S120x84_1_0 := by
  dsimp only [Gen.V, Gen.hostOps0]; after_results

theorem V_w3 (c : Dev nD) : (V m c main_v2 : S84x5.Idx → EReal)
    = transpose S84x5 [1, 0] (m ((c : Thread nD τ).loc main_arg5)) transposes_S5x84_S84x5_1_0 := by
  dsimp only [Gen.V, Gen.hostOps0]; after_results

/-! ## Each staged block read where the result's block says -/

/-- x's block at point t, at (y₀, y₁, k), is x at the array index under the result's block index (y₀, y₁, ·). -/
theorem blk_x (c : Dev nD) (t : Fin cfg0.N) (y : S4096x5x5.Idx) (k : Fin 5) :
    (iblk m c 0 t : S4096x5x5.Idx → EReal) (ix3 (y 0) (y 1) k)
      = (m ((c : Thread nD τ).loc main_arg0) : S262144x5x5.Idx → EReal)
          (ix3 ((((cfg0.win 7).blk t).view.emb y) 0) ((((cfg0.win 7).blk t).view.emb y) 1) k) := by
  show V m c main_arg0 (((cfg0.win 0).blk t).view.emb (ix3 (y 0) (y 1) k)) = _
  rw [V_main_arg0]
  refine congrArg _ (funext fun a => Fin.ext ?_)
  obtain ⟨e0, e1, e2, e3, e4, e5, -⟩ := idx_facts t
  match a with
  | ⟨0, _⟩ => show win0_0.index t (0 : Fin 3) * 4096 + 1 * (y 0).val = win0_7.index t (0 : Fin 3) * 4096 + 1 * (y 0).val; omega
  | ⟨1, _⟩ => show win0_0.index t (1 : Fin 3) * 5 + 1 * (y 1).val = win0_7.index t (1 : Fin 3) * 5 + 1 * (y 1).val; omega
  | ⟨2, _⟩ => show win0_0.index t (2 : Fin 3) * 5 + 1 * k.val = k.val; omega

/-- The result's block index keeps the last coordinate. -/
theorem blk_o (t : Fin cfg0.N) (y : S4096x5x5.Idx) : (((cfg0.win 7).blk t).view.emb y) 2 = y 2 := by
  obtain ⟨-, -, -, -, -, e5, -⟩ := idx_facts t
  apply Fin.ext
  show win0_7.index t (2 : Fin 3) * 5 + 1 * (y 2).val = (y 2).val
  omega

/-- The staged first weight at (k, j) is W₁ at (j, k). -/
theorem blk_w1 (c : Dev nD) (t : Fin cfg0.N) (j : Fin 120) (k : Fin 5) :
    (iblk m c 1 t : S5x120.Idx → EReal) (ix2 k j) = (m ((c : Thread nD τ).loc main_arg1) : S120x5.Idx → EReal) (ix2 j k) := by
  show (V m c main_v0 : S5x120.Idx → EReal) (((cfg0.win 1).blk t).view.emb (ix2 k j)) = _
  rw [V_w1]
  obtain ⟨-, -, -, -, -, -, e6, e7, -⟩ := idx_facts t
  have he : ((cfg0.win 1).blk t).view.emb (ix2 k j) = ix2 k j := funext fun a => Fin.ext (by
    match a with
    | ⟨0, _⟩ => show win0_1.index t (0 : Fin 2) * 5 + 1 * k.val = k.val; omega
    | ⟨1, _⟩ => show win0_1.index t (1 : Fin 2) * 120 + 1 * j.val = j.val; omega)
  rw [he]
  exact transpose_ix2_apply _ _ k j

/-- The staged second weight at (j, g) is W₂ at (g, j). -/
theorem blk_w2 (c : Dev nD) (t : Fin cfg0.N) (g : Fin 84) (j : Fin 120) :
    (iblk m c 3 t : S120x84.Idx → EReal) (ix2 j g) = (m ((c : Thread nD τ).loc main_arg3) : S84x120.Idx → EReal) (ix2 g j) := by
  show (V m c main_v1 : S120x84.Idx → EReal) (((cfg0.win 3).blk t).view.emb (ix2 j g)) = _
  rw [V_w2]
  obtain ⟨-, -, -, -, -, -, -, -, -, e9, e10, -⟩ := idx_facts t
  have he : ((cfg0.win 3).blk t).view.emb (ix2 j g) = ix2 j g := funext fun a => Fin.ext (by
    match a with
    | ⟨0, _⟩ => show win0_3.index t (0 : Fin 2) * 120 + 1 * j.val = j.val; omega
    | ⟨1, _⟩ => show win0_3.index t (1 : Fin 2) * 84 + 1 * g.val = g.val; omega)
  rw [he]
  exact transpose_ix2_apply _ _ j g

/-- The staged third weight at (g, o) is W₃ at (o, g). -/
theorem blk_w3 (c : Dev nD) (t : Fin cfg0.N) (o : Fin 5) (g : Fin 84) :
    (iblk m c 5 t : S84x5.Idx → EReal) (ix2 g o) = (m ((c : Thread nD τ).loc main_arg5) : S5x84.Idx → EReal) (ix2 o g) := by
  show (V m c main_v2 : S84x5.Idx → EReal) (((cfg0.win 5).blk t).view.emb (ix2 g o)) = _
  rw [V_w3]
  obtain ⟨-, -, -, -, -, -, -, -, -, -, -, -, e12, e13, -⟩ := idx_facts t
  have he : ((cfg0.win 5).blk t).view.emb (ix2 g o) = ix2 g o := funext fun a => Fin.ext (by
    match a with
    | ⟨0, _⟩ => show win0_5.index t (0 : Fin 2) * 84 + 1 * g.val = g.val; omega
    | ⟨1, _⟩ => show win0_5.index t (1 : Fin 2) * 5 + 1 * o.val = o.val; omega)
  rw [he]
  exact transpose_ix2_apply _ _ g o

/-- The staged biases are the bias arguments. -/
theorem blk_b1 (c : Dev nD) (t : Fin cfg0.N) (j : Fin 120) :
    (iblk m c 2 t : S120.Idx → EReal) (ix1 j) = (m ((c : Thread nD τ).loc main_arg2) : S120.Idx → EReal) (ix1 j) := by
  show V m c main_arg2 (((cfg0.win 2).blk t).view.emb (ix1 j)) = _
  rw [V_main_arg2]
  obtain ⟨-, -, -, -, -, -, -, -, e8, -⟩ := idx_facts t
  refine congrArg _ (funext fun a => Fin.ext ?_)
  match a with
  | ⟨0, _⟩ => show win0_2.index t (0 : Fin 1) * 120 + 1 * j.val = j.val; omega

theorem blk_b2 (c : Dev nD) (t : Fin cfg0.N) (g : Fin 84) :
    (iblk m c 4 t : S84.Idx → EReal) (ix1 g) = (m ((c : Thread nD τ).loc main_arg4) : S84.Idx → EReal) (ix1 g) := by
  show V m c main_arg4 (((cfg0.win 4).blk t).view.emb (ix1 g)) = _
  rw [V_main_arg4]
  obtain ⟨-, -, -, -, -, -, -, -, -, -, -, e11, -⟩ := idx_facts t
  refine congrArg _ (funext fun a => Fin.ext ?_)
  match a with
  | ⟨0, _⟩ => show win0_4.index t (0 : Fin 1) * 84 + 1 * g.val = g.val; omega

theorem blk_b3 (c : Dev nD) (t : Fin cfg0.N) (o : Fin 5) :
    (iblk m c 6 t : S5.Idx → EReal) (ix1 o) = (m ((c : Thread nD τ).loc main_arg6) : S5.Idx → EReal) (ix1 o) := by
  show V m c main_arg6 (((cfg0.win 6).blk t).view.emb (ix1 o)) = _
  rw [V_main_arg6]
  obtain ⟨-, -, -, -, -, -, -, -, -, -, -, -, -, -, e14⟩ := idx_facts t
  refine congrArg _ (funext fun a => Fin.ext ?_)
  match a with
  | ⟨0, _⟩ => show win0_6.index t (0 : Fin 1) * 5 + 1 * o.val = o.val; omega

/-! ## What a point writes back, the cover, the final array -/

/-- The spec's array of the seven arguments as launched on core c. -/
abbrev result (c : Dev nD) : S262144x5x5.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- WHAT POINT t WRITES BACK is block t of the spec's array. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after0_7]
  unfold out0_7
  rw [View.canon_unit_zero hz3]
  simp only [View.ld_unit_zero (S := S4096x5x5) hz3, View.ld_unit_zero (S := S5x120) hz2, View.ld_unit_zero (S := S120) hz1,
    View.ld_unit_zero (S := S120x84) hz2, View.ld_unit_zero (S := S84) hz1, View.ld_unit_zero (S := S84x5) hz2,
    View.ld_unit_zero (S := S5) hz1]
  funext y
  refine (block_apply (iblk m c 0 t) (iblk m c 1 t) (iblk m c 2 t) (iblk m c 3 t) (iblk m c 4 t) (iblk m c 5 t) (iblk m c 6 t) y).trans ?_
  exact rowOut_congr (fun k => blk_x m c t y k) (fun j k => blk_w1 m c t j k) (fun j => blk_b1 m c t j)
    (fun g j => blk_w2 m c t g j) (fun g => blk_b2 m c t g) (fun o g => blk_w3 m c t o g) (fun o => blk_b3 m c t o)
    (blk_o t y).symm

/-- An index of the result array is in point t's block iff each coordinate is in the block's range on its axis. -/
theorem mem_blk (t : Fin cfg0.N) (i : S262144x5x5.Idx) :
    i ∈ ((cfg0.win 7).blk t).view.set ↔ ∀ a : Fin 3, win0_7.index t a * S4096x5x5.size a ≤ (i a).val
      ∧ (i a).val < win0_7.index t a * S4096x5x5.size a + S4096x5x5.size a := by
  show i ∈ ((View.whole main_v3).slice (win0_7.rect t)).set ↔ _
  rw [View.set_slice_whole, Rect.mem_set_unit]
  exact Iff.rfl

/-- Every index of the result lies in the block of the point its board's number divided by 4096 names. -/
theorem cover (i : S262144x5x5.Idx) :
    ∃ t : Fin cfg0.N, (cfg0.win 7).flush t = true ∧ i ∈ ((cfg0.win 7).blk t).view.set := by
  have hi0 : (i 0).val < 262144 := (i 0).isLt
  have hi1 : (i 1).val < 5 := (i 1).isLt
  have hi2 : (i 2).val < 5 := (i 2).isLt
  have hN : cfg0.N = 64 := N_0
  let t : Fin cfg0.N := ⟨(i 0).val / 4096, by rw [hN]; omega⟩
  have ht : t.val = (i 0).val / 4096 := rfl
  refine ⟨t, flush0_7 t, ?_⟩
  rw [mem_blk]
  obtain ⟨-, -, -, e3, e4, e5, -⟩ := idx_facts t
  intro a
  match a with
  | ⟨0, _⟩ => show win0_7.index t (0 : Fin 3) * 4096 ≤ (i 0).val ∧ (i 0).val < win0_7.index t (0 : Fin 3) * 4096 + 4096; omega
  | ⟨1, _⟩ => show win0_7.index t (1 : Fin 3) * 5 ≤ (i 1).val ∧ (i 1).val < win0_7.index t (1 : Fin 3) * 5 + 5; omega
  | ⟨2, _⟩ => show win0_7.index t (2 : Fin 3) * 5 ≤ (i 2).val ∧ (i 2).val < win0_7.index t (2 : Fin 3) * 5 + 5; omega

/-- THE RESULT ARRAY after the run is the spec's array. -/
theorem final (c : Dev nD) : (dats m 0 c).arrAt 7 cfg0.N = result m c :=
  (dats m 0 c).arrAt_eq_of_cover 7 (result m c) (fun t _ => flushed_eq m c t) cover

/-! ## The run -/

/-- Every weakly fair execution of the kernel program terminates with the result array at the spec's array of the
    arguments and the seven arguments as launched. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c)))⟩)
    (run_main m ρ)

end Cert.Mlp.Ker

end
-- ==== Proof.RefRow.lean ====
/-
  The reference program, read one row at a time.

  Each of its three layers is a dot_general contracting the last axis of a [262144, 5, K] array with the second axis of
  a [J, K] weight, plus the bias broadcast along the last axis, clamped below by zero; at the entry (b, s, j) that is the
  spec's dense layer of the row (b, s, ·).  The sum of squares, its square root, the clamp, the quotient and the final
  select are then the spec's row function, entry by entry: the host's initial value of the sum is the zero word, which
  is the real zero, and the host's unordered "not equal" is the ordered one on the extended reals (nothing is unordered).
-/
import proofs.«175537_j17360257811096_1_alg».proof.Proof.Gen.ReferenceIdeal.Read
import proofs.«175537_j17360257811096_1_alg».proof.Proof.Spec

noncomputable section

open scoped BigOperators

namespace Cert.Mlp.Ref

open Cert.ReferenceIdeal Cert.ReferenceIdeal.Gen Cert.ReferenceIdeal.Read Idealize.ShloMosaic Idealize.ShloMosaic.ValueIdx

variable (x0 : (⟨S262144x5x5, .f32⟩ : BufTy).Contents (Elt Ideal)) (x1 : (⟨S120x5, .f32⟩ : BufTy).Contents (Elt Ideal))
  (x2 : (⟨S120, .f32⟩ : BufTy).Contents (Elt Ideal)) (x3 : (⟨S84x120, .f32⟩ : BufTy).Contents (Elt Ideal))
  (x4 : (⟨S84, .f32⟩ : BufTy).Contents (Elt Ideal)) (x5 : (⟨S5x84, .f32⟩ : BufTy).Contents (Elt Ideal))
  (x6 : (⟨S5, .f32⟩ : BufTy).Contents (Elt Ideal))

/-- The first layer after its rectifier, at (b, s, j). -/
theorem layer1_at (b : Fin 262144) (s : Fin 5) (j : Fin 120) :
    val_main_v4 (F := Ideal) x0 x1 x2 (ix3 b s j)
      = dense (fun k => x0 (ix3 b s k)) (fun j k => x1 (ix2 j k)) (fun j => x2 (ix1 j)) j := by
  rw [val_main_v4_apply, val_main_v3_apply, val_main_v0_apply, val_main_v2_apply, val_main_v1_apply,
    val_main_call0_v0_apply, val_main_call0_cst_apply]
  have el : ∀ k, lidx_main_v0 (ix3 b s j) k = ix3 b s k := fun k =>
    funext fun a => Fin.ext (by match a with | ⟨0, _⟩ => rfl | ⟨1, _⟩ => rfl | ⟨2, _⟩ => rfl)
  have er : ∀ k, ridx_main_v0 (ix3 b s j) k = ix2 j k := fun k =>
    funext fun a => Fin.ext (by match a with | ⟨0, _⟩ => rfl | ⟨1, _⟩ => rfl)
  have eb : idx_main_v1 (idx_main_v2 (ix3 b s j)) = ix1 j :=
    funext fun a => Fin.ext (by match a with | ⟨0, _⟩ => rfl)
  simp only [el, er, eb]
  rfl

/-- The second layer after its rectifier, at (b, s, g), from the first layer's row. -/
theorem layer2_at (b : Fin 262144) (s : Fin 5) (g : Fin 84) :
    val_main_v9 (F := Ideal) x0 x1 x2 x3 x4 (ix3 b s g)
      = dense (fun j => val_main_v4 (F := Ideal) x0 x1 x2 (ix3 b s j)) (fun g j => x3 (ix2 g j)) (fun g => x4 (ix1 g)) g := by
  rw [val_main_v9_apply, val_main_v8_apply, val_main_v5_apply, val_main_v7_apply, val_main_v6_apply,
    val_main_call1_v0_apply, val_main_call1_cst_apply]
  have el : ∀ k, lidx_main_v5 (ix3 b s g) k = ix3 b s k := fun k =>
    funext fun a => Fin.ext (by match a with | ⟨0, _⟩ => rfl | ⟨1, _⟩ => rfl | ⟨2, _⟩ => rfl)
  have er : ∀ k, ridx_main_v5 (ix3 b s g) k = ix2 g k := fun k =>
    funext fun a => Fin.ext (by match a with | ⟨0, _⟩ => rfl | ⟨1, _⟩ => rfl)
  have eb : idx_main_v6 (idx_main_v7 (ix3 b s g)) = ix1 g :=
    funext fun a => Fin.ext (by match a with | ⟨0, _⟩ => rfl)
  simp only [el, er, eb]
  rfl

/-- The third layer after its rectifier, at (b, s, o), from the second layer's row. -/
theorem layer3_at (b : Fin 262144) (s : Fin 5) (o : Fin 5) :
    val_main_v14 (F := Ideal) x0 x1 x2 x3 x4 x5 x6 (ix3 b s o)
      = dense (fun g => val_main_v9 (F := Ideal) x0 x1 x2 x3 x4 (ix3 b s g)) (fun o g => x5 (ix2 o g)) (fun o => x6 (ix1 o)) o := by
  rw [val_main_v14_apply, val_main_v13_apply, val_main_v10_apply, val_main_v12_apply, val_main_v11_apply,
    val_main_call2_v0_apply, val_main_call2_cst_apply]
  have el : ∀ k, lidx_main_v10 (ix3 b s o) k = ix3 b s k := fun k =>
    funext fun a => Fin.ext (by match a with | ⟨0, _⟩ => rfl | ⟨1, _⟩ => rfl | ⟨2, _⟩ => rfl)
  have er : ∀ k, ridx_main_v10 (ix3 b s o) k = ix2 o k := fun k =>
    funext fun a => Fin.ext (by match a with | ⟨0, _⟩ => rfl | ⟨1, _⟩ => rfl)
  have eb : idx_main_v11 (idx_main_v12 (ix3 b s o)) = ix1 o :=
    funext fun a => Fin.ext (by match a with | ⟨0, _⟩ => rfl)
  simp only [el, er, eb]
  rfl

/-- The three layers together are the spec's hidden row. -/
theorem hidden_at (b : Fin 262144) (s : Fin 5) (o : Fin 5) :
    val_main_v14 (F := Ideal) x0 x1 x2 x3 x4 x5 x6 (ix3 b s o)
      = hidden (fun k => x0 (ix3 b s k)) (fun j k => x1 (ix2 j k)) (fun j => x2 (ix1 j)) (fun g j => x3 (ix2 g j))
          (fun g => x4 (ix1 g)) (fun o g => x5 (ix2 o g)) (fun o => x6 (ix1 o)) o := by
  rw [layer3_at]
  simp only [layer2_at, layer1_at]
  rfl

/-- The reference's result at (b, s, o) is the spec's row function of the row (b, s, ·). -/
theorem out_at (b : Fin 262144) (s : Fin 5) (o : Fin 5) :
    val_main_v25 (F := Ideal) x0 x1 x2 x3 x4 x5 x6 (ix3 b s o)
      = rowOut (fun k => x0 (ix3 b s k)) (fun j k => x1 (ix2 j k)) (fun j => x2 (ix1 j)) (fun g j => x3 (ix2 g j))
          (fun g => x4 (ix1 g)) (fun o g => x5 (ix2 o g)) (fun o => x6 (ix1 o)) o := by
  rw [val_main_v25_apply, val_main_v24_apply, val_main_v23_apply, val_main_cst_1_apply, val_main_call3_v1_apply,
    val_main_call3_v0_apply, val_main_cst_2_apply, val_main_v22_apply, val_main_v21_apply, val_main_v20_apply,
    val_main_v18_apply, val_main_v17_apply, val_main_v16_apply, val_main_v19_apply, val_main_cst_0_apply,
    val_main_cst_apply]
  have ek : ∀ k, idx_main_v16 (idx_main_v17 (idx_main_v21 (ix3 b s o))) k = ix3 b s k := fun k =>
    funext fun a => Fin.ext (by match a with | ⟨0, _⟩ => rfl | ⟨1, _⟩ => rfl | ⟨2, _⟩ => rfl)
  simp only [ek, val_main_v15_apply, hidden_at]
  unfold rowOut unitRow
  show Scalar.select (Ideal.cmp .une (x0 (ix3 b s o)) z) z
      (Ideal.div _ (max (Ideal.sqrt (Ideal.ofBits .f32 0x00000000#32 + ∑ k : Fin 5, _ * _)) e)) = _
  rw [Ideal.ofBits_zero_f32, zero_add]
  rfl

/-- So the reference's result array is the spec's function of its seven arguments. -/
theorem result_eq : val_main_v25 (F := Ideal) x0 x1 x2 x3 x4 x5 x6 = G x0 x1 x2 x3 x4 x5 x6 := by
  funext i
  obtain ⟨b, s, o, rfl⟩ : ∃ (b : Fin 262144) (s : Fin 5) (o : Fin 5), i = ix3 b s o := ⟨i 0, i 1, i 2, eq_ix3 i⟩
  rw [out_at]
  rfl

end Cert.Mlp.Ref

end
-- ==== Proof.lean ====
/-
  The kernel and the reference compute one function of their seven arguments on the extended reals.

  The kernel streams x : [262144, 5, 5] through 64 grid points of 4096 boards, views each block as 20480 rows of five
  numbers, and on every row runs a 5 → 120 → 84 → 5 network — three plain matrix products against the weights the host
  has transposed beforehand, each followed by a bias and the rectifier —, divides the row by its Euclidean length
  clamped below by the word 0x2B8CBCCC, and zeroes the entries whose input is not zero.  The reference does the same on
  the whole array with three dot_generals that contract the weights' second axis.  At the ideal values a product into
  the zero accumulator and a dot_general are the same sum, the lane sum and the host's sum from the zero word are the
  same sum, the two square roots and the two quotients are the same functions, and "not equal" ordered or unordered is
  the same comparison; so both result arrays are the array Cert.Mlp.G of the arguments (Spec.lean): the reference by
  reading its run one operation at a time (RefRow.lean), the kernel by reading one block's row (KernelRow.lean) and
  tiling the result with the 64 blocks (KernelValue.lean).  No finiteness is used: the two sides apply the same
  operations to the same operands in the same order, up to the order of a finite sum.

  The three frames are the generated ones (the reference's is its run with the result dropped); the idealisation
  rewrote nothing, so there is nothing to preserve.
-/
import proofs.«175537_j17360257811096_1_alg».proof.Defs
import proofs.«175537_j17360257811096_1_alg».proof.Proof.Gen.Kernel
import proofs.«175537_j17360257811096_1_alg».proof.Proof.Gen.Kernel.Skeleton
import proofs.«175537_j17360257811096_1_alg».proof.Proof.Gen.Kernel.Launch
import proofs.«175537_j17360257811096_1_alg».proof.Proof.Gen.Kernel.Points
import proofs.«175537_j17360257811096_1_alg».proof.Proof.Gen.Kernel.Frame
import proofs.«175537_j17360257811096_1_alg».proof.Proof.Gen.KernelIdeal
import proofs.«175537_j17360257811096_1_alg».proof.Proof.Gen.KernelIdeal.Skeleton
import proofs.«175537_j17360257811096_1_alg».proof.Proof.Gen.KernelIdeal.Launch
import proofs.«175537_j17360257811096_1_alg».proof.Proof.Gen.KernelIdeal.Points
import proofs.«175537_j17360257811096_1_alg».proof.Proof.Gen.KernelIdeal.Frame
import proofs.«175537_j17360257811096_1_alg».proof.Proof.Gen.ReferenceIdeal
import proofs.«175537_j17360257811096_1_alg».proof.Proof.Gen.ReferenceIdeal.Run
import proofs.«175537_j17360257811096_1_alg».proof.Proof.Gen.ReferenceIdeal.Read
import proofs.«175537_j17360257811096_1_alg».proof.Proof.Gen.Pre_finite_inputs
import proofs.«175537_j17360257811096_1_alg».proof.Proof.KernelValue
import proofs.«175537_j17360257811096_1_alg».proof.Proof.RefRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation's ledger is empty. -/
theorem preserves : Cert.preserves_Kernel_KernelIdeal := trivial

/-- Both programs end with their result at the spec's array of the arguments, and the arguments agree. -/
theorem algebraic : Cert.algebraic_KernelIdeal_ReferenceIdeal := by
  intro m ρ m' ρ' _ hagree
  refine ⟨fun c => Cert.Mlp.Ker.result m c, Cert.Mlp.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Mlp.Ref.result_eq]
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
